-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x4096 : Shape := ⟨2, ![64, 4096]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4096x64 .f32) (main_arg1 : FVec F S64x4096 .f32) (main_arg2 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4096x64 : Shape := ⟨2, ![4096, 64]⟩
abbrev S64x4096 : Shape := ⟨2, ![64, 4096]⟩
abbrev S64 : Shape := ⟨1, ![64]⟩
abbrev S1x64 : Shape := ⟨2, ![1, 64]⟩
abbrev S4096x4096 : Shape := ⟨2, ![4096, 4096]⟩
abbrev S512x64 : Shape := ⟨2, ![512, 64]⟩
abbrev S512x4096 : Shape := ⟨2, ![512, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S4096x4096, .f32⟩
  | .local _ .vmem, ⟨0, _⟩ => ⟨S1x64, .f32⟩
  | .local _ .vmem, ⟨1, _⟩ => ⟨S512x64, .f32⟩
  | .local _ .vmem, ⟨2, _⟩ => ⟨S512x64, .f32⟩
  | .local _ .vmem, ⟨3, _⟩ => ⟨S64x4096, .f32⟩
  | .local _ .vmem, ⟨4, _⟩ => ⟨S512x4096, .f32⟩
  | .local _ .vmem, ⟨5, _⟩ => ⟨S512x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_v0) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S64x4096 : Shape := ⟨2, ![64, 4096]⟩
abbrev S64 : Shape := ⟨1, ![64]⟩
abbrev S_ : Shape := ⟨0, ![]⟩
abbrev S64x64 : Shape := ⟨2, ![64, 64]⟩
abbrev S64x1 : Shape := ⟨2, ![64, 1]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x1, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x4096, .f32⟩
  | .hbm, ⟨17, _⟩ => ⟨S4096x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩

abbrev nD : Nat := 1
abbrev τ : Topo := Topo.v7x

variable {F : FTy → Type} [FloatOps F]

class Facts₀ : Prop where
  pads_S64_S64_000 : S64.Pads (![0] : Fin 1 → Nat) ![0] ![0] S64
  h_S_ : 0 < S_.numel
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S64x64_S64x4096_S64x4096_1_0_0_1_n_n_wf : DotDims.WF S64x64 S64x4096 S64x4096 [1] [0] [0] [1] [] []
  dot_S4096x64_S64x4096_S4096x4096_1_0_0_1_n_n_wf : DotDims.WF S4096x64 S64x4096 S4096x4096 [1] [0] [0] [1] [] []

variable [Facts₀]

def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  The specification both programs meet, and the one law that joins their two spellings.

  Over the extended reals, for A of shape [4096, 64], B of shape [64, 4096] and W of shape [64], the result at
  (r, c) is  ∑ k, (A[r, k] · W[k]) · B[k, c]  — the product A · diag(W) · B with the diagonal scaling folded
  into the left factor. The other spelling builds diag(W) as a 64 × 64 matrix whose off-diagonal entries are
  zero and multiplies twice. The two agree because a sum whose terms vanish off one index is that index's term
  (zero times anything is zero on the extended reals, infinities included) and because multiplication of
  extended reals is associative; no finiteness of the inputs is used.
-/
import Idealize.ShloMosaic.PureOps.Ideal
import Idealize.ShloMosaic.Lib.ValueIdx

noncomputable section

namespace Cert.DiagScaled

open Idealize.ShloMosaic Idealize.ShloMosaic.ValueIdx
open scoped BigOperators

/-- `A · diag(W) · B` index by index: at (r, c) the sum over k of (A[r, k] · W[k]) · B[k, c]. -/
def scaledProduct (a : FVec Ideal ⟨2, ![4096, 64]⟩ .f32) (b : FVec Ideal ⟨2, ![64, 4096]⟩ .f32) (w : FVec Ideal ⟨1, ![64]⟩ .f32) :
    FVec Ideal ⟨2, ![4096, 4096]⟩ .f32 :=
  fun i => ∑ k : Fin 64, (a (ix2 (i 0) k) * w (ix1 k)) * b (ix2 k (i 1))

/-- A row of a diagonal matrix against a column: the sum over l of (w k if k = l, else 0) · b l is w k · b k. -/
theorem sum_diag_row_mul (w : EReal) (b : Fin 64 → EReal) (k : Fin 64) :
    ∑ l : Fin 64, (if k = l then w else 0) * b l = w * b k := by
  rw [Finset.sum_eq_single k]
  · rw [if_pos rfl]
  · intro l _ hl
    rw [if_neg (Ne.symm hl), zero_mul]
  · intro h
    exact absurd (Finset.mem_univ k) h

end Cert.DiagScaled

end
-- ==== Proof.RefRun.lean ====
/-
  The reference program as a straight line. Its @main calls `jnp.diag`'s outlined function, which itself calls
  `jnp.where`'s; listed here are the thirteen operations of the two callees, inlined at the call over the call's own
  buffers, followed by @main's two matrix products. The diagonal matrix is built as
  `select (row == col) (W broadcast along the columns) 0`; the first product multiplies it into the right
  operand, the second multiplies the left operand into that.
-/
import proofs.«110984_g11768210391385_cont_sun_m_794_7_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The diagonal matrix of a vector `w`, as the reference spells it: entry (k, l) is `w k` when the row number
    equals the column number and the zero constant otherwise (the vector first padded by nothing, then broadcast
    along the columns). -/
def diagOf (w : FVec F S64 .f32) : FVec F S64x64 .f32 :=
  select
    (cmpi .eq (addi (iotaInDim S64x64 32 0) (broadcastInDim S64x64 ![] bcast_S_S64x64 (constantI S_ 32 0#32))) (iotaInDim S64x64 32 1))
    (broadcastInDim S64x64 ![0, 1] bcast_S64x1_S64x64_0_1
      (broadcastInDim S64x1 ![0] bcast_S64_S64x1_0
        (pad S64 ![0] ![0] ![0] w (constant S_ .f32 0x00000000#32) pads_S64_S64_000 h_S_)))
    (broadcastInDim S64x64 ![] bcast_S_S64x64 (constant S_ .f32 0x00000000#32))

/-- The reference's result as one term of the three argument arrays: `A · (diag W · B)`. -/
def result (a : FVec F S4096x64 .f32) (b : FVec F S64x4096 .f32) (w : FVec F S64 .f32) : FVec F S4096x4096 .f32 :=
  Host.dotGeneral dot_S4096x64_S64x4096_S4096x4096_1_0_0_1_n_n none a
    (Host.dotGeneral dot_S64x64_S64x4096_S64x4096_1_0_0_1_n_n none (diagOf w) b)

/-- @main's fifteen operations in order, the two calls unfolded. -/
abbrev ops : List (HloOp τ sig (Elt F)) :=
  [ TRef.nullary main_call0.cst (constant S_ .f32 0x00000000#32),
    TRef.binary (.of main_arg2) main_call0.cst main_call0.v0 (fun x v => pad S64 ![0] ![0] ![0] x v pads_S64_S64_000 h_S_),
    TRef.nullary main_call0.v1 (iotaInDim S64x64 32 0),
    TRef.nullary main_call0.v2 (iotaInDim S64x64 32 1),
    TRef.nullary main_call0.c (constantI S_ 32 0#32),
    TRef.unary main_call0.c main_call0.v3 (broadcastInDim S64x64 ![] bcast_S_S64x64),
    TRef.binary main_call0.v1 main_call0.v3 main_call0.v4 addi,
    TRef.binary main_call0.v4 main_call0.v2 main_call0.v5 (cmpi .eq),
    TRef.unary main_call0.v0 main_call0.v6 (broadcastInDim S64x1 ![0] bcast_S64_S64x1_0),
    TRef.nullary main_call0.cst_0 (constant S_ .f32 0x00000000#32),
    TRef.unary main_call0.v6 main_call0.call0.v0 (broadcastInDim S64x64 ![0, 1] bcast_S64x1_S64x64_0_1),
    TRef.unary main_call0.cst_0 main_call0.call0.v1 (broadcastInDim S64x64 ![] bcast_S_S64x64),
    TRef.ternary main_call0.v5 main_call0.call0.v0 main_call0.call0.v1 main_call0.call0.v2 select,
    binary main_v0 main_arg1 main_v1 ((fun l r => Host.dotGeneral dot_S64x64_S64x4096_S64x4096_1_0_0_1_n_n none l r) : (⟨S64x64, .f32⟩ : BufTy).Contents (Elt F) → (⟨S64x4096, .f32⟩ : BufTy).Contents (Elt F) → (⟨S64x4096, .f32⟩ : BufTy).Contents (Elt F)),
    binary main_arg0 main_v1 main_v2 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)) ]

/-- @main is that straight line: the callees' definitions unfolded at their calls, sequencing reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., binary_bufs_sub .., binary_bufs_sub ..⟩

/-- The straight line's fold at the result buffer is `result` of the launch contents of the three arguments. -/
theorem after_v2 (V : Valuation τ sig (Elt F)) :
    after ops V (main_v2 : DevRef τ sig)
      = result (V (main_arg0 : DevRef τ sig)) (V (main_arg1 : DevRef τ sig)) (V (main_arg2 : DevRef τ sig)) := by
  after_results
  rfl

theorem after_arg0 (V : Valuation τ sig (Elt F)) : after ops V (main_arg0 : DevRef τ sig) = V (main_arg0 : DevRef τ sig) := by
  after_results
theorem after_arg1 (V : Valuation τ sig (Elt F)) : after ops V (main_arg1 : DevRef τ sig) = V (main_arg1 : DevRef τ sig) := by
  after_results
theorem after_arg2 (V : Valuation τ sig (Elt F)) : after ops V (main_arg2 : DevRef τ sig) = V (main_arg2 : DevRef τ sig) := by
  after_results

/-- On every device, for any float values, from any memory with zero counters: every weakly fair execution of the
    reference terminates with its result array at `result` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (after_v2 _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.ReferenceIdeal.Straight

end
-- ==== Proof.RefValue.lean ====
/-
  The reference's result, read index by index at the extended reals, is the specification.

  Entry (k, l) of the matrix the reference builds from W is W[k] when k = l and 0 otherwise: the row and column
  numbers are compared as 32-bit words, and for numbers below 64 the words are equal exactly when the numbers
  are. Its product with B therefore has entry (k, c) equal to W[k] · B[k, c] (a one-term sum), and the product of A
  with that has entry (r, c) equal to ∑ k, A[r, k] · (W[k] · B[k, c]) — the specification's sum after
  reassociating each term.
-/
import proofs.«110984_g11768210391385_cont_sun_m_794_7_alg».proof.Proof.RefRun
import proofs.«110984_g11768210391385_cont_sun_m_794_7_alg».proof.Proof.Spec
import Idealize.ShloMosaic.PureOps.Ideal.Laws
import Idealize.ShloMosaic.Lib.IdealHost
import Idealize.ShloMosaic.Lib.KernelVsHost
import Idealize.ShloMosaic.Lib.Pipeline.Value
import Idealize.ShloMosaic.Lib.WordArith

noncomputable section

namespace Cert.DiagScaled.Ref

open Cert.ReferenceIdeal Cert.ReferenceIdeal.Gen Cert.ReferenceIdeal.Straight
open Idealize.ShloMosaic Idealize.ShloMosaic.ValueIdx
open scoped BigOperators

/-- The row number and the column number, as 32-bit words (the row's with the zero constant added), are equal
    exactly when the numbers are: both are below 64. -/
theorem rowEqCol_iff (k l : Fin 64) :
    IntOp.cmpi .eq (IntOp.addi (BitVec.ofNat 32 k.val) 0#32) (BitVec.ofNat 32 l.val) = 1#1 ↔ k = l := by
  have hk := k.isLt
  have hl := l.isLt
  simp only [IntOp.cmpi, IntOp.addi, BitVec.add_zero]
  rw [WordArith.ofBool_eq_one_iff, beq_iff_eq]
  constructor
  · intro h
    have e := congrArg BitVec.toNat h
    simp only [BitVec.toNat_ofNat] at e
    exact Fin.ext (by omega)
  · rintro rfl
    rfl

/-- W broadcast along the columns of a 64 × 64 matrix, read at (k, l): W[k]. -/
theorem spread_apply (w : FVec Ideal S64 .f32) (k l : Fin 64) :
    broadcastInDim S64x64 ![0, 1] bcast_S64x1_S64x64_0_1
      (broadcastInDim S64x1 ![0] bcast_S64_S64x1_0
        (pad S64 ![0] ![0] ![0] w (constant (F := Ideal) S_ .f32 0x00000000#32) pads_S64_S64_000 h_S_)) (ix2 k l)
      = w (ix1 k) := by
  refine (broadcastInDim_apply _ _ _ (ix2 k l) (ix2 k (0 : Fin 1)) fun a => ?_).trans ?_
  · match a with
    | ⟨0, _⟩ => rfl
    | ⟨1, _⟩ => rfl
  refine (broadcastInDim_apply _ _ _ (ix2 k (0 : Fin 1)) (ix1 k) fun a => ?_).trans ?_
  · match a with
    | ⟨0, _⟩ => rfl
  refine pad_apply_of_inside _ _ _ _ _ _ _ (ix1 k) (ix1 k) fun a => ?_
  match a with
  | ⟨0, _⟩ =>
    show k.val = 0 + k.val * (0 + 1)
    omega

/-- The matrix the reference builds from W, read at (k, l): W[k] on the diagonal, zero off it. -/
theorem diagOf_apply (w : FVec Ideal S64 .f32) (k l : Fin 64) :
    diagOf (F := Ideal) w (ix2 k l) = if k = l then w (ix1 k) else 0 := by
  unfold diagOf
  rw [select_apply, spread_apply, broadcastInDim_scalar_apply, constant_apply, Ideal.ofBits_zero_f32]
  have hc : cmpi .eq (addi (iotaInDim S64x64 32 0) (broadcastInDim S64x64 ![] bcast_S_S64x64 (constantI S_ 32 0#32)))
      (iotaInDim S64x64 32 1) (ix2 k l)
      = IntOp.cmpi .eq (IntOp.addi (BitVec.ofNat 32 k.val) 0#32) (BitVec.ofNat 32 l.val) := by
    show IntOp.cmpi .eq (IntOp.addi (BitVec.ofNat 32 k.val) (broadcastInDim S64x64 ![] bcast_S_S64x64 (constantI S_ 32 0#32) (ix2 k l)))
      (BitVec.ofNat 32 l.val) = _
    rw [broadcastInDim_scalar_apply]
    rfl
  rw [hc]
  unfold Scalar.select
  exact if_congr (rowEqCol_iff k l) rfl rfl

local notation "dInner" => dot_S64x64_S64x4096_S64x4096_1_0_0_1_n_n
local notation "dOuter" => dot_S4096x64_S64x4096_S4096x4096_1_0_0_1_n_n

/-- The inner product's operand indices at output (k, c) and contraction position l: (k, l) and (l, c). -/
theorem inner_lhs (k : Fin 64) (c : Fin 4096) (l : Fin 64) :
    (dInner).lhsIdx (ix2 k c) ((contrEquiv1 (dInner) 64 rfl rfl).symm l) = ix2 k l := by
  funext a
  apply Fin.ext
  match a with
  | ⟨0, _⟩ => rfl
  | ⟨1, _⟩ => rfl
theorem inner_rhs (k : Fin 64) (c : Fin 4096) (l : Fin 64) :
    (dInner).rhsIdx (ix2 k c) ((contrEquiv1 (dInner) 64 rfl rfl).symm l) = ix2 l c := by
  funext a
  apply Fin.ext
  match a with
  | ⟨0, _⟩ => rfl
  | ⟨1, _⟩ => rfl

/-- The outer product's operand indices at output (r, c) and contraction position k: (r, k) and (k, c). -/
theorem outer_lhs (r c : Fin 4096) (k : Fin 64) :
    (dOuter).lhsIdx (ix2 r c) ((contrEquiv1 (dOuter) 64 rfl rfl).symm k) = ix2 r k := by
  funext a
  apply Fin.ext
  match a with
  | ⟨0, _⟩ => rfl
  | ⟨1, _⟩ => rfl
theorem outer_rhs (r c : Fin 4096) (k : Fin 64) :
    (dOuter).rhsIdx (ix2 r c) ((contrEquiv1 (dOuter) 64 rfl rfl).symm k) = ix2 k c := by
  funext a
  apply Fin.ext
  match a with
  | ⟨0, _⟩ => rfl
  | ⟨1, _⟩ => rfl

/-- diag(W) · B at (k, c): W[k] · B[k, c]. -/
theorem inner_apply (b : FVec Ideal S64x4096 .f32) (w : FVec Ideal S64 .f32) (k : Fin 64) (c : Fin 4096) :
    Host.dotGeneral (dInner) none (diagOf (F := Ideal) w) b (ix2 k c) = w (ix1 k) * b (ix2 k c) := by
  simp only [Host.dotGeneral]
  rw [Ideal.dotGeneral_apply, ← Equiv.sum_comp (contrEquiv1 (dInner) 64 rfl rfl).symm]
  simp only [inner_lhs, inner_rhs, diagOf_apply]
  exact sum_diag_row_mul (w (ix1 k)) (fun l => b (ix2 l c)) k

/-- The reference's result is the specification. -/
theorem result_eq (a : FVec Ideal S4096x64 .f32) (b : FVec Ideal S64x4096 .f32) (w : FVec Ideal S64 .f32) :
    result (F := Ideal) a b w = scaledProduct a b w := by
  funext i
  obtain ⟨r, c, rfl⟩ : ∃ (r : Fin 4096) (c : Fin 4096), i = ix2 r c := ⟨i 0, i 1, eq_ix2 i⟩
  unfold result scaledProduct
  simp only [Host.dotGeneral]
  rw [Ideal.dotGeneral_apply, ← Equiv.sum_comp (contrEquiv1 (dOuter) 64 rfl rfl).symm]
  refine Finset.sum_congr rfl fun k _ => ?_
  rw [outer_lhs, outer_rhs]
  have e := inner_apply b w k c
  simp only [Host.dotGeneral] at e
  rw [e, mul_assoc]

end Cert.DiagScaled.Ref

end
-- ==== Proof.KerBody.lean ====
/-
  The kernel body's one stored value, read index by index at the extended reals.

  At a grid point the body loads a block of 512 rows of A, the one row W (as a 1 × 64 block) and the whole of B;
  it scales the rows of the A block columnwise by W (the one row broadcast down the 512 rows) and multiplies the
  scaled block into B on the matrix unit, starting from a zero accumulator. So entry (p, q) of the stored block is
  ∑ k, (x[p, k] · w[0, k]) · y[k, q].
-/
import proofs.«110984_g11768210391385_cont_sun_m_794_7_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.DiagScaled.Body

open Cert.KernelIdeal Cert.KernelIdeal.Gen
open Idealize.ShloMosaic Idealize.ShloMosaic.ValueIdx
open scoped BigOperators

local notation "dBlock" => dot_S512x64_S64x4096_S512x4096_1_0_0_1_n_n

/-- The block product's operand indices at output (p, q) and contraction position k: (p, k) and (k, q). -/
theorem block_lhs (p : Fin 512) (q : Fin 4096) (k : Fin 64) :
    (dBlock).lhsIdx (ix2 p q) ((contrEquiv1 (dBlock) 64 rfl rfl).symm k) = ix2 p k := by
  funext a
  apply Fin.ext
  match a with
  | ⟨0, _⟩ => rfl
  | ⟨1, _⟩ => rfl
theorem block_rhs (p : Fin 512) (q : Fin 4096) (k : Fin 64) :
    (dBlock).rhsIdx (ix2 p q) ((contrEquiv1 (dBlock) 64 rfl rfl).symm k) = ix2 k q := by
  funext a
  apply Fin.ext
  match a with
  | ⟨0, _⟩ => rfl
  | ⟨1, _⟩ => rfl

/-- The stored block at (p, q): the sum over k of (x[p, k] · w[0, k]) · y[k, q]. -/
theorem stored_apply (x : Vec Ideal S512x64 .f32) (w : Vec Ideal S1x64 .f32) (y : Vec Ideal S64x4096 .f32)
    (p : Fin 512) (q : Fin 4096) :
    k0_pay1 (F := Ideal) x w y (ix2 p q) = ∑ k : Fin 64, (x (ix2 p k) * w (ix2 (0 : Fin 1) k)) * y (ix2 k q) := by
  unfold k0_pay1
  refine (Ideal.matmul_constant_zero_apply (dBlock) none _ _ (ix2 p q)).trans ?_
  rw [← Equiv.sum_comp (contrEquiv1 (dBlock) 64 rfl rfl).symm]
  refine Finset.sum_congr rfl fun k _ => ?_
  rw [block_lhs, block_rhs, mulf_apply, broadcastTo_1b_ab_apply, shapeCast_self]

/-- The same at any index of the block, by its two coordinates. -/
theorem stored_apply_idx (x : Vec Ideal S512x64 .f32) (w : Vec Ideal S1x64 .f32) (y : Vec Ideal S64x4096 .f32)
    (j : S512x4096.Idx) :
    k0_pay1 (F := Ideal) x w y j = ∑ k : Fin 64, (x (ix2 (j 0) k) * w (ix2 (0 : Fin 1) k)) * y (ix2 k (j 1)) := by
  obtain ⟨p, q, rfl⟩ : ∃ (p : Fin 512) (q : Fin 4096), j = ix2 p q := ⟨j 0, j 1, eq_ix2 j⟩
  exact stored_apply x w y p q

end Cert.DiagScaled.Body

end
-- ==== Proof.KerValue.lean ====
/-
  The kernel's result array as one function of the argument arrays.

  The grid has eight points. Point t stages rows 512·t … 512·t + 511 of A, the whole of B and the one row that the
  host reshaped W into, and writes back rows 512·t … 512·t + 511 of the result. What it writes back is the
  specification read through that block of rows: entry (p, q) of the stored block is
  ∑ k, (A[512·t + p, k] · W[k]) · B[k, q]. The eight blocks of rows tile the 4096 rows (row r lies in the block of
  point r / 512), so the result array ends as the specification of the argument arrays.
-/
import proofs.«110984_g11768210391385_cont_sun_m_794_7_alg».proof.Proof.Gen.KernelIdeal.Value
import proofs.«110984_g11768210391385_cont_sun_m_794_7_alg».proof.Proof.KerBody
import proofs.«110984_g11768210391385_cont_sun_m_794_7_alg».proof.Proof.Spec
import Idealize.ShloMosaic.Lib.StableHlo.Run

set_option maxRecDepth 16384

noncomputable section

namespace Cert.DiagScaled.Ker

open Cert.KernelIdeal Cert.KernelIdeal.Gen Cert.DiagScaled.Body
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem zeroOffsets : (![0, 0] : Fin 2 → Nat) = fun _ => 0 := funext fun a => by fin_cases a <;> rfl

/-- The row the region finds in the first window's array: the host reshaped W from [64] to [1, 64]. -/
theorem rowOfW (c : Dev nD) :
    (V m c main_v0 : S1x64.Idx → EReal) = shapeCast S1x64 (m ((c : Thread nD τ).loc main_arg2)) shapeCasts_S64_S1x64 := by
  dsimp only [Gen.V, Gen.hostOps0]
  after_results
  rfl

/-- That row at column k is W[k]. -/
theorem rowOfW_apply (c : Dev nD) (k : Fin 64) :
    (V m c main_v0 : S1x64.Idx → EReal) (ix2 (0 : Fin 1) k) = m ((c : Thread nD τ).loc main_arg2) (ix1 k) := by
  rw [rowOfW]
  refine shapeCast_apply _ _ (ix2 (0 : Fin 1) k) (ix1 k) ?_
  rw [Shape.rowMajor_val_one, Shape.rowMajor_val_two]
  show k.val = 0 * 64 + k.val
  omega

/-- The printed index maps, decided over the eight points: the A window moves down the rows with the output window
    and sits at column block 0; the W and B windows stay at block (0, 0); the output window sits at column block 0. -/
theorem blockIndices : ∀ t : Fin cfg0.N,
    win0_1.index t (0 : Fin 2) = win0_3.index t (0 : Fin 2)
    ∧ win0_1.index t (1 : Fin 2) = 0
    ∧ win0_0.index t (0 : Fin 2) = 0
    ∧ win0_0.index t (1 : Fin 2) = 0
    ∧ win0_2.index t (0 : Fin 2) = 0
    ∧ win0_2.index t (1 : Fin 2) = 0
    ∧ win0_3.index t (1 : Fin 2) = 0
    ∧ win0_3.index t (0 : Fin 2) ≤ 7 :=
  (by decide +kernel : ∀ t : Fin grid0.N, _)

/-- Every one of the eight row blocks is some point's. -/
theorem rowBlock_onto : ∀ q : Fin 8, ∃ t : Fin cfg0.N, win0_3.index t = ![q.val, 0] :=
  (by decide +kernel : ∀ q : Fin 8, ∃ t : Fin grid0.N, win0_3.index t = ![q.val, 0])

/-- What point t writes back is the specification, of the arrays as the region finds them, read through the
    point's block of rows. -/
theorem flushed_eq (c : Dev nD) (t : Fin cfg0.N) :
    (dats m 0 c).flushed 3 t = ((cfg0.win 3).blk t).view.read (Elt Ideal)
      (scaledProduct (V m c main_arg0) (V m c main_arg1) (m ((c : Thread nD τ).loc main_arg2))) := by
  rw [Cert.KernelIdeal.Value.flushed3]
  unfold out0_3
  rw [View.canon_unit_zero zeroOffsets]
  simp only [View.ld_unit_zero (S := S512x64) zeroOffsets, View.ld_unit_zero (S := S1x64) zeroOffsets,
    View.ld_unit_zero (S := S64x4096) zeroOffsets]
  obtain ⟨e10, e11, e00, e01, e20, e21, e31, -⟩ := blockIndices t
  funext j
  show k0_pay1 (iblk m c 1 t) (iblk m c 0 t) (iblk m c 2 t) j
    = scaledProduct (V m c main_arg0) (V m c main_arg1) (m ((c : Thread nD τ).loc main_arg2)) (((cfg0.win 3).blk t).view.emb j)
  refine (stored_apply_idx (iblk m c 1 t) (iblk m c 0 t) (iblk m c 2 t) j).trans ?_
  unfold scaledProduct
  refine Finset.sum_congr rfl fun k _ => ?_
  have hA : iblk m c 1 t (ix2 (j 0) k) = V m c main_arg0 (ix2 ((((cfg0.win 3).blk t).view.emb j) 0) k) := by
    show V m c main_arg0 (((cfg0.win 1).blk t).view.emb (ix2 (j 0) k)) = _
    refine congrArg _ (funext fun a => Fin.ext ?_)
    match a with
    | ⟨0, _⟩ =>
      show win0_1.index t (0 : Fin 2) * 512 + 1 * (j 0).val = win0_3.index t (0 : Fin 2) * 512 + 1 * (j 0).val
      omega
    | ⟨1, _⟩ =>
      show win0_1.index t (1 : Fin 2) * 64 + 1 * k.val = k.val
      omega
  have hW : iblk m c 0 t (ix2 (0 : Fin 1) k) = m ((c : Thread nD τ).loc main_arg2) (ix1 k) := by
    refine Eq.trans ?_ (rowOfW_apply m c k)
    show V m c main_v0 (((cfg0.win 0).blk t).view.emb (ix2 (0 : Fin 1) k)) = _
    refine congrArg _ (funext fun a => Fin.ext ?_)
    match a with
    | ⟨0, _⟩ =>
      show win0_0.index t (0 : Fin 2) * 1 + 1 * 0 = 0
      omega
    | ⟨1, _⟩ =>
      show win0_0.index t (1 : Fin 2) * 64 + 1 * k.val = k.val
      omega
  have hB : iblk m c 2 t (ix2 k (j 1)) = V m c main_arg1 (ix2 k ((((cfg0.win 3).blk t).view.emb j) 1)) := by
    show V m c main_arg1 (((cfg0.win 2).blk t).view.emb (ix2 k (j 1))) = _
    refine congrArg _ (funext fun a => Fin.ext ?_)
    match a with
    | ⟨0, _⟩ =>
      show win0_2.index t (0 : Fin 2) * 64 + 1 * k.val = k.val
      omega
    | ⟨1, _⟩ =>
      show win0_2.index t (1 : Fin 2) * 4096 + 1 * (j 1).val = win0_3.index t (1 : Fin 2) * 4096 + 1 * (j 1).val
      omega
  rw [hA, hW, hB]

/-- An index of the result array is in point t's block iff each coordinate is in the block's range on its axis. -/
theorem mem_rowBlock (t : Fin cfg0.N) (i : S4096x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v1).slice (win0_3.rect t)).set ↔ _
  rw [View.set_slice_whole, Rect.mem_set_unit]
  exact Iff.rfl

/-- Every index of the result array is in some point's block: row r is in the block of the point whose row block
    is r / 512. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := rowBlock_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_rowBlock]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- The result array after the run: the specification of the argument arrays as launched. -/
theorem final (c : Dev nD) :
    (dats m 0 c).arrAt 3 cfg0.N
      = scaledProduct (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed_eq m c t) cover

/-- Every weakly fair execution of the kernel's program terminates with its result array at the specification of
    the argument arrays, and the arguments unchanged. -/
theorem run : θ_run defs (onTc (τ := τ) (main (F := Ideal))) ⟨m, fun _ => 0, ρ⟩ fun r => ∀ c : Dev nD,
      r.2.mem ((c : Thread nD τ).loc main_v1)
        = scaledProduct (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.DiagScaled.Ker

end
-- ==== Proof.lean ====
/-
  The kernel computes G = A · diag(W) · B for A of shape [4096, 64], W of shape [64] and B of shape [64, 4096]: it
  streams the result in eight blocks of 512 rows, and at each block scales the rows of A columnwise by W and
  multiplies the scaled block into the whole of B from a zero accumulator. The reference builds diag(W) as a
  64 × 64 matrix (W[k] where the row number equals the column number, zero elsewhere) and forms
  A · (diag(W) · B) by two matrix products.

  Over the extended reals both are, at (r, c), the sum over k of (A[r, k] · W[k]) · B[k, c]
  (Proof/Spec.lean): the kernel's block product is that sum term for term (Proof/KerBody.lean) and its eight row
  blocks tile the result (Proof/KerValue.lean); the reference's inner product collapses to its one diagonal term,
  since zero times any extended real is zero, and each term of the outer sum is then reassociated
  (Proof/RefValue.lean, over the reference read as a straight line in Proof/RefRun.lean). No finiteness of the
  inputs is needed. The kernel and its idealization are the same text (no rewrite was applied), so the
  idealization claim is trivial; the three frames are the generated frame runs and the reference's run with its
  result dropped.
-/
import proofs.«110984_g11768210391385_cont_sun_m_794_7_alg».proof.Defs
import proofs.«110984_g11768210391385_cont_sun_m_794_7_alg».proof.Proof.Gen.Kernel
import proofs.«110984_g11768210391385_cont_sun_m_794_7_alg».proof.Proof.Gen.Kernel.Skeleton
import proofs.«110984_g11768210391385_cont_sun_m_794_7_alg».proof.Proof.Gen.Kernel.Launch
import proofs.«110984_g11768210391385_cont_sun_m_794_7_alg».proof.Proof.Gen.Kernel.Points
import proofs.«110984_g11768210391385_cont_sun_m_794_7_alg».proof.Proof.Gen.Kernel.Frame
import proofs.«110984_g11768210391385_cont_sun_m_794_7_alg».proof.Proof.Gen.KernelIdeal
import proofs.«110984_g11768210391385_cont_sun_m_794_7_alg».proof.Proof.Gen.KernelIdeal.Skeleton
import proofs.«110984_g11768210391385_cont_sun_m_794_7_alg».proof.Proof.Gen.KernelIdeal.Launch
import proofs.«110984_g11768210391385_cont_sun_m_794_7_alg».proof.Proof.Gen.KernelIdeal.Points
import proofs.«110984_g11768210391385_cont_sun_m_794_7_alg».proof.Proof.Gen.KernelIdeal.Frame
import proofs.«110984_g11768210391385_cont_sun_m_794_7_alg».proof.Proof.Gen.KernelIdeal.Value
import proofs.«110984_g11768210391385_cont_sun_m_794_7_alg».proof.Proof.Gen.ReferenceIdeal
import proofs.«110984_g11768210391385_cont_sun_m_794_7_alg».proof.Proof.Gen.Pre_finite_inputs
import proofs.«110984_g11768210391385_cont_sun_m_794_7_alg».proof.Proof.Spec
import proofs.«110984_g11768210391385_cont_sun_m_794_7_alg».proof.Proof.RefRun
import proofs.«110984_g11768210391385_cont_sun_m_794_7_alg».proof.Proof.RefValue
import proofs.«110984_g11768210391385_cont_sun_m_794_7_alg».proof.Proof.KerBody
import proofs.«110984_g11768210391385_cont_sun_m_794_7_alg».proof.Proof.KerValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Straight.run (F := Ideal) m ρ)

/-- No operation was rewritten when the kernel was idealized. -/
theorem preserves : Cert.preserves_Kernel_KernelIdeal := trivial

/-- From memories that agree on A, B and W, the kernel's result array ends at the specification of the three
    arrays, and the reference's at its own term of them, which is the specification. -/
theorem algebraic : Cert.algebraic_KernelIdeal_ReferenceIdeal := by
  intro m ρ m' ρ' _ hagree
  refine ⟨_, Cert.DiagScaled.Ker.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2]
  exact Cert.DiagScaled.Ref.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
